-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_v48 main_v49 main_v50

def fn_part1 {F : FTy → Type} [FloatOps F] (main_arg4 : FVec F S16384x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 35
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x4096, .f32⟩
  | .hbm, ⟨22, _⟩ => ⟨S1024x4096, .bf16⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x4096, .f32⟩
  | .hbm, ⟨28, _⟩ => ⟨S1024x4096, .bf16⟩
  | .hbm, ⟨29, _⟩ => ⟨S4096, .f32⟩
  | .hbm, ⟨30, _⟩ => ⟨S1x4096, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1024x4096, .bf16⟩
  | .local _ .vmem, ⟨11, _⟩ => ⟨S1024x4096, .bf16⟩
  | .local _ .vmem, ⟨12, _⟩ => ⟨S1x4096, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S16384x1024.size a
  hwx0_3 : ∀ i : grid0.Coords, EltTy.bits .f32 = 32 ∨ (Rect.block (s := S16384x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S16384x1024.size a
  hwx0_4 : ∀ i : grid0.Coords, EltTy.bits .f32 = 32 ∨ (Rect.block (s := S16384x1024) S128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S16384x1024.size a
  hwx0_8 : ∀ i : grid0.Coords, EltTy.bits .f32 = 32 ∨ (Rect.block (s := S16384x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S16384x1024.size a
  hwx0_9 : ∀ i : grid0.Coords, EltTy.bits .f32 = 32 ∨ (Rect.block (s := S16384x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S16384x1024.size a
  hwx0_10 : ∀ i : grid0.Coords, EltTy.bits .f32 = 32 ∨ (Rect.block (s := S16384x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S16384x1024.size a
  hwx0_11 : ∀ i : grid0.Coords, EltTy.bits .f32 = 32 ∨ (Rect.block (s := S16384x1024) S128x1024.size (cc0_transform_11 i) (hinb0_11 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_1) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_2) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14_3) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x1024, .f32⟩
  | .hbm, ⟨26, _⟩ => ⟨S16384x1024, .f32⟩
  | .hbm, ⟨27, _⟩ => ⟨S1024x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1024x1024, .f32⟩
  | .hbm, ⟨34, _⟩ => ⟨S16384x1024, .f32⟩
  | .hbm, ⟨35, _⟩ => ⟨S1024x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1024x1024, .f32⟩
  | .hbm, ⟨42, _⟩ => ⟨S16384x1024, .f32⟩
  | .hbm, ⟨43, _⟩ => ⟨S1024x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelFrame.lean ====
/-
  The frame of `Kernel`'s @main: fourteen host operations (eight transposes, three concatenations, two roundings to
  bf16, one reshape) prepare the two fused weight matrices and the fused bias, and one launch then walks 128 row
  blocks.  At each block the body reads five 128×1024 input blocks, the two resident 1024×4096 weight matrices and
  the 1×4096 bias, and overwrites four 128×1024 output blocks whole.  Stated here: what the region finds in every
  buffer (the fold of the host operations over the launch memory), each window's block at a point, what the body
  leaves in each output block as a function of the input blocks, the body's triple, the per-point obligation, the run
  of @main to the point where every output array is named, and the frame claim (the argument arrays end as
  launched).  Everything is stated at an arbitrary float instance.
-/
import proofs.«135092_j51565377355780_2_alg».proof.Proof.Gen.Kernel.Launch
import proofs.«135092_j51565377355780_2_alg».proof.Proof.Gen.Kernel.Skeleton
import proofs.«135092_j51565377355780_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fourteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the line of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether fetched there or kept from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether fetched there or kept from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether fetched there or kept from the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether fetched there or kept from the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether fetched there or kept from the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether fetched there or kept from the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every window's array at what the proof data computes and every other unscoped buffer as
    the region found it: every argument array ends as launched (an input window's array is never written back; the
    weights and biases are staged by no window and written by no host operation). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-! ## The body's accesses -/

abbrev rD : Rect S128x1024 := Rect.unit (s := S128x1024) ![0, 0] S128x1024.size inb_S128x1024_S128x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in each output block

Arguments: the blocks of x, h_prev, c_prev, n_prev, m_prev, the two fused weight matrices, the fused bias. -/

/-- The new hidden state's block. -/
def out0_8 (x0 x1 x2 x3 x4 : Vec F S128x1024 .f32) (x5 x6 : Vec F S1024x4096 .bf16) (x7 : Vec F S1x4096 .f32) : Vec F S128x1024 .f32 :=
  View.canon [⟨rD, k0_pay9 (View.ld x0 rD) (View.ld x1 rD) (View.ld x5 rW) (View.ld x6 rW) (View.ld x7 rB) (View.ld x2 rD) (View.ld x3 rD) (View.ld x4 rD)⟩]
/-- The new cell state's block. -/
def out0_9 (x0 x1 x2 x3 x4 : Vec F S128x1024 .f32) (x5 x6 : Vec F S1024x4096 .bf16) (x7 : Vec F S1x4096 .f32) : Vec F S128x1024 .f32 :=
  View.canon [⟨rD, k0_pay7 (View.ld x0 rD) (View.ld x1 rD) (View.ld x5 rW) (View.ld x6 rW) (View.ld x7 rB) (View.ld x2 rD) (View.ld x4 rD)⟩]
/-- The new normalizer's block. -/
def out0_10 (x0 x1 x2 x3 x4 : Vec F S128x1024 .f32) (x5 x6 : Vec F S1024x4096 .bf16) (x7 : Vec F S1x4096 .f32) : Vec F S128x1024 .f32 :=
  View.canon [⟨rD, k0_pay8 (View.ld x0 rD) (View.ld x1 rD) (View.ld x5 rW) (View.ld x6 rW) (View.ld x7 rB) (View.ld x3 rD) (View.ld x4 rD)⟩]
/-- The new stabilizer's block. -/
def out0_11 (x0 x1 x2 x3 x4 : Vec F S128x1024 .f32) (x5 x6 : Vec F S1024x4096 .bf16) (x7 : Vec F S1x4096 .f32) : Vec F S128x1024 .f32 :=
  View.canon [⟨rD, k0_pay4 (View.ld x0 rD) (View.ld x1 rD) (View.ld x5 rW) (View.ld x6 rW) (View.ld x7 rB) (View.ld x4 rD)⟩]

/-- One store of the whole block covers the block. -/
theorem coverD (p0 : Vec F S128x1024 .f32) (y : S128x1024.Idx) :
    ∃ pc ∈ ([⟨rD, p0⟩] : List (View.Piece (Elt F) S128x1024 .f32)), y ∈ pc.1.set :=
  View.cover_of_tiled [⟨rD, p0⟩] S128x1024.size (by rfl) y

/-! ## The body's triple -/

set_option maxHeartbeats 4000000 in
/-- The body on whole staging buffers, the inputs' at contents `xW` and the outputs' at anything, ends with the inputs'
    as they were and each output's at `out0_W` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S1024x4096 .bf16) (harg6 : arg6.IsWhole) (arg7 : Memref sig .tc .vmem S1024x4096 .bf16) (harg7 : arg7.IsWhole) (arg8 : Memref sig .tc .vmem S1x4096 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole)
    (x0 x1 x2 x3 x4 : Vec F S128x1024 .f32) (x5 x6 : Vec F S1024x4096 .bf16) (x7 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7)) -∗ K ⟨⟩))
      ⊢ wp frame (wpE (defs₀ (F := F)) Variants.none c none) E (cc0__slstm_kernel i arg1 harg1 arg2 harg2 arg3 harg3 arg4 harg4 arg5 harg5 arg6 harg6 arg7 harg7 arg8 harg8 arg9 harg9 arg10 harg10 arg11 harg11 arg12 harg12) K := by
  simp only [cc0__slstm_kernel_eq_skeleton]; unfold cc0__slstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverD _)
  isplitl [H9]
  · iexists _; isplitr
    swap; · iexact H9
    ipureintro
    exact View.read_writes_eq_canon _ _ _ (coverD _)
  isplitl [H10]
  · iexists _; isplitr
    swap; · iexact H10
    ipureintro
    exact View.read_writes_eq_canon _ _ _ (coverD _)
  iexists _; isplitr
  swap; · iexact H11
  ipureintro
  exact View.read_writes_eq_canon _ _ _ (coverD _)

/-! ## The pipeline's proof data -/

/-- The proof data on core `c`: the arrays as the region finds them; after the body at point `t` each input's buffer at
    its block and each output's at `out0_W` of the input blocks; no scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
    | ⟨11, _⟩ => out0_11 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and ends with every window's array at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and leaves its seventeen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Frm

end
-- ==== Proof.KernelIdealFrame.lean ====
/-
  The frame of `KernelIdeal`'s @main: fourteen host operations (eight transposes, three concatenations, two roundings to
  bf16, one reshape) prepare the two fused weight matrices and the fused bias, and one launch then walks 128 row
  blocks.  At each block the body reads five 128×1024 input blocks, the two resident 1024×4096 weight matrices and
  the 1×4096 bias, and overwrites four 128×1024 output blocks whole.  Stated here: what the region finds in every
  buffer (the fold of the host operations over the launch memory), each window's block at a point, what the body
  leaves in each output block as a function of the input blocks, the body's triple, the per-point obligation, the run
  of @main to the point where every output array is named, and the frame claim (the argument arrays end as
  launched).  Everything is stated at an arbitrary float instance.
-/
import proofs.«135092_j51565377355780_2_alg».proof.Proof.Gen.KernelIdeal.Launch
import proofs.«135092_j51565377355780_2_alg».proof.Proof.Gen.KernelIdeal.Skeleton
import proofs.«135092_j51565377355780_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fourteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the line of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether fetched there or kept from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether fetched there or kept from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether fetched there or kept from the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether fetched there or kept from the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether fetched there or kept from the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether fetched there or kept from the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every window's array at what the proof data computes and every other unscoped buffer as
    the region found it: every argument array ends as launched (an input window's array is never written back; the
    weights and biases are staged by no window and written by no host operation). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-! ## The body's accesses -/

abbrev rD : Rect S128x1024 := Rect.unit (s := S128x1024) ![0, 0] S128x1024.size inb_S128x1024_S128x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in each output block

Arguments: the blocks of x, h_prev, c_prev, n_prev, m_prev, the two fused weight matrices, the fused bias. -/

/-- The new hidden state's block. -/
def out0_8 (x0 x1 x2 x3 x4 : Vec F S128x1024 .f32) (x5 x6 : Vec F S1024x4096 .bf16) (x7 : Vec F S1x4096 .f32) : Vec F S128x1024 .f32 :=
  View.canon [⟨rD, k0_pay9 (View.ld x0 rD) (View.ld x1 rD) (View.ld x5 rW) (View.ld x6 rW) (View.ld x7 rB) (View.ld x2 rD) (View.ld x3 rD) (View.ld x4 rD)⟩]
/-- The new cell state's block. -/
def out0_9 (x0 x1 x2 x3 x4 : Vec F S128x1024 .f32) (x5 x6 : Vec F S1024x4096 .bf16) (x7 : Vec F S1x4096 .f32) : Vec F S128x1024 .f32 :=
  View.canon [⟨rD, k0_pay7 (View.ld x0 rD) (View.ld x1 rD) (View.ld x5 rW) (View.ld x6 rW) (View.ld x7 rB) (View.ld x2 rD) (View.ld x4 rD)⟩]
/-- The new normalizer's block. -/
def out0_10 (x0 x1 x2 x3 x4 : Vec F S128x1024 .f32) (x5 x6 : Vec F S1024x4096 .bf16) (x7 : Vec F S1x4096 .f32) : Vec F S128x1024 .f32 :=
  View.canon [⟨rD, k0_pay8 (View.ld x0 rD) (View.ld x1 rD) (View.ld x5 rW) (View.ld x6 rW) (View.ld x7 rB) (View.ld x3 rD) (View.ld x4 rD)⟩]
/-- The new stabilizer's block. -/
def out0_11 (x0 x1 x2 x3 x4 : Vec F S128x1024 .f32) (x5 x6 : Vec F S1024x4096 .bf16) (x7 : Vec F S1x4096 .f32) : Vec F S128x1024 .f32 :=
  View.canon [⟨rD, k0_pay4 (View.ld x0 rD) (View.ld x1 rD) (View.ld x5 rW) (View.ld x6 rW) (View.ld x7 rB) (View.ld x4 rD)⟩]

/-- One store of the whole block covers the block. -/
theorem coverD (p0 : Vec F S128x1024 .f32) (y : S128x1024.Idx) :
    ∃ pc ∈ ([⟨rD, p0⟩] : List (View.Piece (Elt F) S128x1024 .f32)), y ∈ pc.1.set :=
  View.cover_of_tiled [⟨rD, p0⟩] S128x1024.size (by rfl) y

/-! ## The body's triple -/

set_option maxHeartbeats 4000000 in
/-- The body on whole staging buffers, the inputs' at contents `xW` and the outputs' at anything, ends with the inputs'
    as they were and each output's at `out0_W` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S1024x4096 .bf16) (harg6 : arg6.IsWhole) (arg7 : Memref sig .tc .vmem S1024x4096 .bf16) (harg7 : arg7.IsWhole) (arg8 : Memref sig .tc .vmem S1x4096 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole)
    (x0 x1 x2 x3 x4 : Vec F S128x1024 .f32) (x5 x6 : Vec F S1024x4096 .bf16) (x7 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7)) -∗ K ⟨⟩))
      ⊢ wp frame (wpE (defs₀ (F := F)) Variants.none c none) E (cc0__slstm_kernel i arg1 harg1 arg2 harg2 arg3 harg3 arg4 harg4 arg5 harg5 arg6 harg6 arg7 harg7 arg8 harg8 arg9 harg9 arg10 harg10 arg11 harg11 arg12 harg12) K := by
  simp only [cc0__slstm_kernel_eq_skeleton]; unfold cc0__slstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverD _)
  isplitl [H9]
  · iexists _; isplitr
    swap; · iexact H9
    ipureintro
    exact View.read_writes_eq_canon _ _ _ (coverD _)
  isplitl [H10]
  · iexists _; isplitr
    swap; · iexact H10
    ipureintro
    exact View.read_writes_eq_canon _ _ _ (coverD _)
  iexists _; isplitr
  swap; · iexact H11
  ipureintro
  exact View.read_writes_eq_canon _ _ _ (coverD _)

/-! ## The pipeline's proof data -/

/-- The proof data on core `c`: the arrays as the region finds them; after the body at point `t` each input's buffer at
    its block and each output's at `out0_W` of the input blocks; no scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
    | ⟨11, _⟩ => out0_11 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and ends with every window's array at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and leaves its seventeen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Frm

end
-- ==== Proof.Cell.lean ====
/-
  One step of the stabilized exponential-gate recurrent cell, as functions of the argument arrays, entry by entry,
  over the extended reals.

  For a batch row r and a feature j, each of the four gates g has the pre-activation
      pre_g (r, j) = (Σₖ x (r, k) · W_g (j, k) + Σₖ h (r, k) · R_g (j, k)) + b_g (j),
  the products and sums exact.  With z, i, f, o the four pre-activations and c, n, m the previous cell state,
  normalizer and stabilizer at (r, j):
      m' = max (f + m) i,   î = exp (i − m'),   f̂ = exp ((f + m) − m'),
      c' = f̂ · c + î · tanh z,   n' = f̂ · n + î,   h' = (σ o · c') / n',
  where σ is the logistic function 1 / (1 + e⁻ᵒ) and the quotient is the instance's division.
-/
import Idealize.ShloMosaic.Lib.ValueIdx
import Idealize.ShloMosaic.PureOps.Ideal

noncomputable section

namespace Cert.Cell

open Idealize.ShloMosaic Idealize.ShloMosaic.ValueIdx

/-- A batch of 16384 rows of 1024 features. -/
abbrev SB : Shape := ⟨2, ![16384, 1024]⟩
/-- A 1024 × 1024 weight matrix (output feature first). -/
abbrev SW : Shape := ⟨2, ![1024, 1024]⟩
/-- A bias vector. -/
abbrev Sb : Shape := ⟨1, ![1024]⟩

/-- A gate's pre-activation at row `r`, feature `j`. -/
def pre (x h : SB.Idx → EReal) (W R : SW.Idx → EReal) (b : Sb.Idx → EReal) (r : Fin 16384) (j : Fin 1024) : EReal :=
  ((∑ k : Fin 1024, x (ix2 r k) * W (ix2 j k)) + (∑ k : Fin 1024, h (ix2 r k) * R (ix2 j k))) + b (ix1 j)

/-- A block of 128 batch rows. -/
abbrev SD : Shape := ⟨2, ![128, 1024]⟩
/-- The four gates' weight matrices side by side, input feature first: column `g · 1024 + j` is gate `g`'s output feature `j`. -/
abbrev SF : Shape := ⟨2, ![1024, 4096]⟩
/-- The four gates' biases side by side, as a one-row matrix. -/
abbrev SFb : Shape := ⟨2, ![1, 4096]⟩

/-- Gate `g`'s output feature `j` as a column of the side-by-side layout. -/
def gcol (g : Fin 4) (j : Fin 1024) : Fin 4096 := ⟨g.val * 1024 + j.val, by have := j.isLt; have := g.isLt; omega⟩

/-- The fused pre-activation of a block of rows at row `p` of the block and column `q` of the side-by-side layout:
    the row of `x` against the column of the fused input weights, plus the row of `h` against the column of the fused
    recurrent weights, plus the fused bias. -/
def bpre (xb hb : SD.Idx → EReal) (W R : SF.Idx → EReal) (b : SFb.Idx → EReal) (p : Fin 128) (q : Fin 4096) : EReal :=
  ((∑ k : Fin 1024, xb (ix2 p k) * W (ix2 k q)) + (∑ k : Fin 1024, hb (ix2 p k) * R (ix2 k q))) + b (ix2 (0 : Fin 1) q)

/-- The fused pre-activation of a block is a gate's pre-activation of the whole arrays, when the block's rows of `x` and
    `h` are row `r` of the arrays, the fused weights' column is the gate's weight row `j`, and the fused bias entry is the
    gate's bias entry `j`: the same two sums of the same products, plus the same bias. -/
theorem bpre_eq (xb hb : SD.Idx → EReal) (Wf Rf : SF.Idx → EReal) (bf : SFb.Idx → EReal)
    (x h : SB.Idx → EReal) (W R : SW.Idx → EReal) (b : Sb.Idx → EReal)
    (p : Fin 128) (r : Fin 16384) (q : Fin 4096) (j : Fin 1024)
    (hx : ∀ k : Fin 1024, xb (ix2 p k) = x (ix2 r k)) (hh : ∀ k : Fin 1024, hb (ix2 p k) = h (ix2 r k))
    (hW : ∀ k : Fin 1024, Wf (ix2 k q) = W (ix2 j k)) (hR : ∀ k : Fin 1024, Rf (ix2 k q) = R (ix2 j k))
    (hb' : bf (ix2 (0 : Fin 1) q) = b (ix1 j)) :
    bpre xb hb Wf Rf bf p q = pre x h W R b r j := by
  unfold bpre pre
  rw [hb', Finset.sum_congr rfl (fun k _ => by rw [hx k, hW k] : ∀ k ∈ Finset.univ, xb (ix2 p k) * Wf (ix2 k q) = x (ix2 r k) * W (ix2 j k)),
    Finset.sum_congr rfl (fun k _ => by rw [hh k, hR k] : ∀ k ∈ Finset.univ, hb (ix2 p k) * Rf (ix2 k q) = h (ix2 r k) * R (ix2 j k))]

/-- The new stabilizer from the input- and forget-gate pre-activations and the old stabilizer. -/
def mNew (ip fp mp : EReal) : EReal := max (fp + mp) ip
/-- The stabilized input gate. -/
def iHat (ip fp mp : EReal) : EReal := Ideal.exp (ip - mNew ip fp mp)
/-- The stabilized forget gate. -/
def fHat (ip fp mp : EReal) : EReal := Ideal.exp ((fp + mp) - mNew ip fp mp)
/-- The new cell state. -/
def cNew (zp ip fp cp mp : EReal) : EReal := fHat ip fp mp * cp + iHat ip fp mp * Ideal.tanh zp
/-- The new normalizer. -/
def nNew (ip fp np mp : EReal) : EReal := fHat ip fp mp * np + iHat ip fp mp
/-- The new hidden state. -/
def hNew (zp ip fp op cp np mp : EReal) : EReal :=
  Ideal.div (Ideal.logistic op * cNew zp ip fp cp mp) (nNew ip fp np mp)

section
variable (x h c n mm : SB.Idx → EReal) (Wz Wi Wf Wo Rz Ri Rf Ro : SW.Idx → EReal) (bz bi bf bo : Sb.Idx → EReal)

/-- The new stabilizer array. -/
def Gm : SB.Idx → EReal := fun i =>
  mNew (pre x h Wi Ri bi (i 0) (i 1)) (pre x h Wf Rf bf (i 0) (i 1)) (mm i)
/-- The new cell-state array. -/
def Gc : SB.Idx → EReal := fun i =>
  cNew (pre x h Wz Rz bz (i 0) (i 1)) (pre x h Wi Ri bi (i 0) (i 1)) (pre x h Wf Rf bf (i 0) (i 1)) (c i) (mm i)
/-- The new normalizer array. -/
def Gn : SB.Idx → EReal := fun i =>
  nNew (pre x h Wi Ri bi (i 0) (i 1)) (pre x h Wf Rf bf (i 0) (i 1)) (n i) (mm i)
/-- The new hidden-state array. -/
def Gh : SB.Idx → EReal := fun i =>
  hNew (pre x h Wz Rz bz (i 0) (i 1)) (pre x h Wi Ri bi (i 0) (i 1)) (pre x h Wf Rf bf (i 0) (i 1))
    (pre x h Wo Ro bo (i 0) (i 1)) (c i) (n i) (mm i)
end

end Cert.Cell

end
-- ==== Proof.KernelIdealHost.lean ====
/-
  What the region finds in the three operand arrays the host prepares, entry by entry (exact instance).

  The fused input weights are the four gates' matrices transposed and set side by side, then rounded to bf16 — the
  identity here —, so entry (k, g · 1024 + j) is W_g (j, k); the fused recurrent weights likewise; the fused bias is
  the four bias vectors end to end, reshaped to one row, so entry (0, g · 1024 + j) is b_g (j).
-/
import proofs.«135092_j51565377355780_2_alg».proof.Proof.Gen.KernelIdeal.Launch
import proofs.«135092_j51565377355780_2_alg».proof.Proof.Cell
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal

noncomputable section

namespace Cert.KernelIdeal.HostV

open Idealize.ShloMosaic Idealize.ShloMosaic.TcCoe Idealize.ShloMosaic.ValueIdx Idealize.ShloMosaic.StableHlo Idealize.SL.Sem
open Cert.KernelIdeal Cert.KernelIdeal.Gen Cert.Cell

variable {α : Type}

/-! ## Four square pieces side by side, and four vectors end to end -/

section Pieces
variable (a0 a1 a2 a3 : S1024x1024.Idx → α)
  (h : Shape.Concatenates [S1024x1024, S1024x1024, S1024x1024, S1024x1024] S1024x4096 1) (k j : Fin 1024)

theorem cols0 : concatenate S1024x4096 1 [⟨S1024x1024, a0⟩, ⟨S1024x1024, a1⟩, ⟨S1024x1024, a2⟩, ⟨S1024x1024, a3⟩] h (ix2 k (gcol 0 j)) = a0 (ix2 k j) :=
  concatenate_apply_piece (t := S1024x4096) (1 : Fin 2) [⟨S1024x1024, a0⟩, ⟨S1024x1024, a1⟩, ⟨S1024x1024, a2⟩, ⟨S1024x1024, a3⟩] h (ix2 k (gcol 0 j)) 0 (by show 0 < 4; omega) S1024x1024 a0 rfl rfl 0 rfl (ix2 k j)
    (fun b hb => match b with | ⟨0, _⟩ => rfl | ⟨1, _⟩ => absurd rfl hb) (by show 0 + j.val = 0 * 1024 + j.val; omega)
theorem cols1 : concatenate S1024x4096 1 [⟨S1024x1024, a0⟩, ⟨S1024x1024, a1⟩, ⟨S1024x1024, a2⟩, ⟨S1024x1024, a3⟩] h (ix2 k (gcol 1 j)) = a1 (ix2 k j) :=
  concatenate_apply_piece (t := S1024x4096) (1 : Fin 2) [⟨S1024x1024, a0⟩, ⟨S1024x1024, a1⟩, ⟨S1024x1024, a2⟩, ⟨S1024x1024, a3⟩] h (ix2 k (gcol 1 j)) 1 (by show 1 < 4; omega) S1024x1024 a1 rfl rfl 1024 rfl (ix2 k j)
    (fun b hb => match b with | ⟨0, _⟩ => rfl | ⟨1, _⟩ => absurd rfl hb) (by show 1024 + j.val = 1 * 1024 + j.val; omega)
theorem cols2 : concatenate S1024x4096 1 [⟨S1024x1024, a0⟩, ⟨S1024x1024, a1⟩, ⟨S1024x1024, a2⟩, ⟨S1024x1024, a3⟩] h (ix2 k (gcol 2 j)) = a2 (ix2 k j) :=
  concatenate_apply_piece (t := S1024x4096) (1 : Fin 2) [⟨S1024x1024, a0⟩, ⟨S1024x1024, a1⟩, ⟨S1024x1024, a2⟩, ⟨S1024x1024, a3⟩] h (ix2 k (gcol 2 j)) 2 (by show 2 < 4; omega) S1024x1024 a2 rfl rfl 2048 rfl (ix2 k j)
    (fun b hb => match b with | ⟨0, _⟩ => rfl | ⟨1, _⟩ => absurd rfl hb) (by show 2048 + j.val = 2 * 1024 + j.val; omega)
theorem cols3 : concatenate S1024x4096 1 [⟨S1024x1024, a0⟩, ⟨S1024x1024, a1⟩, ⟨S1024x1024, a2⟩, ⟨S1024x1024, a3⟩] h (ix2 k (gcol 3 j)) = a3 (ix2 k j) :=
  concatenate_apply_piece (t := S1024x4096) (1 : Fin 2) [⟨S1024x1024, a0⟩, ⟨S1024x1024, a1⟩, ⟨S1024x1024, a2⟩, ⟨S1024x1024, a3⟩] h (ix2 k (gcol 3 j)) 3 (by show 3 < 4; omega) S1024x1024 a3 rfl rfl 3072 rfl (ix2 k j)
    (fun b hb => match b with | ⟨0, _⟩ => rfl | ⟨1, _⟩ => absurd rfl hb) (by show 3072 + j.val = 3 * 1024 + j.val; omega)
end Pieces

section Vectors
variable (b0 b1 b2 b3 : S1024.Idx → α) (h : Shape.Concatenates [S1024, S1024, S1024, S1024] S4096 0) (j : Fin 1024)

theorem ends0 : concatenate S4096 0 [⟨S1024, b0⟩, ⟨S1024, b1⟩, ⟨S1024, b2⟩, ⟨S1024, b3⟩] h (ix1 (gcol 0 j)) = b0 (ix1 j) :=
  concatenate_apply_piece (t := S4096) (0 : Fin 1) [⟨S1024, b0⟩, ⟨S1024, b1⟩, ⟨S1024, b2⟩, ⟨S1024, b3⟩] h (ix1 (gcol 0 j)) 0 (by show 0 < 4; omega) S1024 b0 rfl rfl 0 rfl (ix1 j)
    (fun b hb => match b with | ⟨0, _⟩ => absurd rfl hb) (by show 0 + j.val = 0 * 1024 + j.val; omega)
theorem ends1 : concatenate S4096 0 [⟨S1024, b0⟩, ⟨S1024, b1⟩, ⟨S1024, b2⟩, ⟨S1024, b3⟩] h (ix1 (gcol 1 j)) = b1 (ix1 j) :=
  concatenate_apply_piece (t := S4096) (0 : Fin 1) [⟨S1024, b0⟩, ⟨S1024, b1⟩, ⟨S1024, b2⟩, ⟨S1024, b3⟩] h (ix1 (gcol 1 j)) 1 (by show 1 < 4; omega) S1024 b1 rfl rfl 1024 rfl (ix1 j)
    (fun b hb => match b with | ⟨0, _⟩ => absurd rfl hb) (by show 1024 + j.val = 1 * 1024 + j.val; omega)
theorem ends2 : concatenate S4096 0 [⟨S1024, b0⟩, ⟨S1024, b1⟩, ⟨S1024, b2⟩, ⟨S1024, b3⟩] h (ix1 (gcol 2 j)) = b2 (ix1 j) :=
  concatenate_apply_piece (t := S4096) (0 : Fin 1) [⟨S1024, b0⟩, ⟨S1024, b1⟩, ⟨S1024, b2⟩, ⟨S1024, b3⟩] h (ix1 (gcol 2 j)) 2 (by show 2 < 4; omega) S1024 b2 rfl rfl 2048 rfl (ix1 j)
    (fun b hb => match b with | ⟨0, _⟩ => absurd rfl hb) (by show 2048 + j.val = 2 * 1024 + j.val; omega)
theorem ends3 : concatenate S4096 0 [⟨S1024, b0⟩, ⟨S1024, b1⟩, ⟨S1024, b2⟩, ⟨S1024, b3⟩] h (ix1 (gcol 3 j)) = b3 (ix1 j) :=
  concatenate_apply_piece (t := S4096) (0 : Fin 1) [⟨S1024, b0⟩, ⟨S1024, b1⟩, ⟨S1024, b2⟩, ⟨S1024, b3⟩] h (ix1 (gcol 3 j)) 3 (by show 3 < 4; omega) S1024 b3 rfl rfl 3072 rfl (ix1 j)
    (fun b hb => match b with | ⟨0, _⟩ => absurd rfl hb) (by show 3072 + j.val = 3 * 1024 + j.val; omega)
end Vectors

/-- A 4096-vector reshaped to one row has at (0, q) the vector's entry q. -/
theorem row_apply (v : S4096.Idx → α) (h : S4096.ShapeCasts S1x4096) (q : Fin 4096) :
    shapeCast S1x4096 v h (ix2 (0 : Fin 1) q) = v (ix1 q) :=
  shapeCast_apply v h (ix2 (0 : Fin 1) q) (ix1 q) (by
    rw [Shape.rowMajor_val_two, Shape.rowMajor_val_one]; show q.val = 0 * 4096 + q.val; omega)

/-! ## The fused operands as functions of the arguments -/

/-- Four matrices transposed, set side by side and rounded to bf16. -/
def fused {F : FTy → Type} [FloatOps F] (a0 a1 a2 a3 : FVec F S1024x1024 .f32) : FVec F S1024x4096 .bf16 :=
  truncf .bf16 (concatenate S1024x4096 1 [⟨S1024x1024, transpose S1024x1024 [1, 0] a0 transposes_S1024x1024_S1024x1024_1_0⟩,
    ⟨S1024x1024, transpose S1024x1024 [1, 0] a1 transposes_S1024x1024_S1024x1024_1_0⟩,
    ⟨S1024x1024, transpose S1024x1024 [1, 0] a2 transposes_S1024x1024_S1024x1024_1_0⟩,
    ⟨S1024x1024, transpose S1024x1024 [1, 0] a3 transposes_S1024x1024_S1024x1024_1_0⟩]
    concatenates_S1024x1024_S1024x1024_S1024x1024_S1024x1024_S1024x4096_d1) bitsLt_bf16_f32

/-- Four vectors end to end, as one row. -/
def fusedB {F : FTy → Type} [FloatOps F] (b0 b1 b2 b3 : FVec F S1024 .f32) : FVec F S1x4096 .f32 :=
  shapeCast S1x4096 (concatenate S4096 0 [⟨S1024, b0⟩, ⟨S1024, b1⟩, ⟨S1024, b2⟩, ⟨S1024, b3⟩]
    concatenates_S1024_S1024_S1024_S1024_S4096_d0) shapeCasts_S4096_S1x4096

section Read
variable (a0 a1 a2 a3 : FVec Ideal S1024x1024 .f32) (k j : Fin 1024)

theorem fused0 : fused (F := Ideal) a0 a1 a2 a3 (ix2 k (gcol 0 j)) = a0 (ix2 j k) :=
  (cols0 (transpose S1024x1024 [1, 0] a0 transposes_S1024x1024_S1024x1024_1_0) (transpose S1024x1024 [1, 0] a1 transposes_S1024x1024_S1024x1024_1_0) (transpose S1024x1024 [1, 0] a2 transposes_S1024x1024_S1024x1024_1_0) (transpose S1024x1024 [1, 0] a3 transposes_S1024x1024_S1024x1024_1_0)
    concatenates_S1024x1024_S1024x1024_S1024x1024_S1024x1024_S1024x4096_d1 k j).trans
    (transpose_ix2_apply a0 transposes_S1024x1024_S1024x1024_1_0 k j)
theorem fused1 : fused (F := Ideal) a0 a1 a2 a3 (ix2 k (gcol 1 j)) = a1 (ix2 j k) :=
  (cols1 (transpose S1024x1024 [1, 0] a0 transposes_S1024x1024_S1024x1024_1_0) (transpose S1024x1024 [1, 0] a1 transposes_S1024x1024_S1024x1024_1_0) (transpose S1024x1024 [1, 0] a2 transposes_S1024x1024_S1024x1024_1_0) (transpose S1024x1024 [1, 0] a3 transposes_S1024x1024_S1024x1024_1_0)
    concatenates_S1024x1024_S1024x1024_S1024x1024_S1024x1024_S1024x4096_d1 k j).trans
    (transpose_ix2_apply a1 transposes_S1024x1024_S1024x1024_1_0 k j)
theorem fused2 : fused (F := Ideal) a0 a1 a2 a3 (ix2 k (gcol 2 j)) = a2 (ix2 j k) :=
  (cols2 (transpose S1024x1024 [1, 0] a0 transposes_S1024x1024_S1024x1024_1_0) (transpose S1024x1024 [1, 0] a1 transposes_S1024x1024_S1024x1024_1_0) (transpose S1024x1024 [1, 0] a2 transposes_S1024x1024_S1024x1024_1_0) (transpose S1024x1024 [1, 0] a3 transposes_S1024x1024_S1024x1024_1_0)
    concatenates_S1024x1024_S1024x1024_S1024x1024_S1024x1024_S1024x4096_d1 k j).trans
    (transpose_ix2_apply a2 transposes_S1024x1024_S1024x1024_1_0 k j)
theorem fused3 : fused (F := Ideal) a0 a1 a2 a3 (ix2 k (gcol 3 j)) = a3 (ix2 j k) :=
  (cols3 (transpose S1024x1024 [1, 0] a0 transposes_S1024x1024_S1024x1024_1_0) (transpose S1024x1024 [1, 0] a1 transposes_S1024x1024_S1024x1024_1_0) (transpose S1024x1024 [1, 0] a2 transposes_S1024x1024_S1024x1024_1_0) (transpose S1024x1024 [1, 0] a3 transposes_S1024x1024_S1024x1024_1_0)
    concatenates_S1024x1024_S1024x1024_S1024x1024_S1024x1024_S1024x4096_d1 k j).trans
    (transpose_ix2_apply a3 transposes_S1024x1024_S1024x1024_1_0 k j)

variable (b0 b1 b2 b3 : FVec Ideal S1024 .f32)

theorem fusedB0 : fusedB (F := Ideal) b0 b1 b2 b3 (ix2 (0 : Fin 1) (gcol 0 j)) = b0 (ix1 j) :=
  (row_apply _ shapeCasts_S4096_S1x4096 (gcol 0 j)).trans (ends0 b0 b1 b2 b3 concatenates_S1024_S1024_S1024_S1024_S4096_d0 j)
theorem fusedB1 : fusedB (F := Ideal) b0 b1 b2 b3 (ix2 (0 : Fin 1) (gcol 1 j)) = b1 (ix1 j) :=
  (row_apply _ shapeCasts_S4096_S1x4096 (gcol 1 j)).trans (ends1 b0 b1 b2 b3 concatenates_S1024_S1024_S1024_S1024_S4096_d0 j)
theorem fusedB2 : fusedB (F := Ideal) b0 b1 b2 b3 (ix2 (0 : Fin 1) (gcol 2 j)) = b2 (ix1 j) :=
  (row_apply _ shapeCasts_S4096_S1x4096 (gcol 2 j)).trans (ends2 b0 b1 b2 b3 concatenates_S1024_S1024_S1024_S1024_S4096_d0 j)
theorem fusedB3 : fusedB (F := Ideal) b0 b1 b2 b3 (ix2 (0 : Fin 1) (gcol 3 j)) = b3 (ix1 j) :=
  (row_apply _ shapeCasts_S4096_S1x4096 (gcol 3 j)).trans (ends3 b0 b1 b2 b3 concatenates_S1024_S1024_S1024_S1024_S4096_d0 j)
end Read

/-! ## What the host operations leave in the three prepared arrays -/

section After
variable {F : FTy → Type} [FloatOps F] (m : (ℓ : Loc nD τ sig) → Buf (Elt F) ℓ) (c : Dev nD)

theorem after_v5 : (StableHlo.after hostOps0 (fun b => m (c, b)) (Proc.devRef .tc main_v5) : FVec F S1024x4096 .bf16)
    = fused (m ((c : Thread nD τ).loc main_arg5)) (m ((c : Thread nD τ).loc main_arg6)) (m ((c : Thread nD τ).loc main_arg7)) (m ((c : Thread nD τ).loc main_arg8)) := by
  dsimp only [hostOps0]; after_results; rfl
theorem after_v11 : (StableHlo.after hostOps0 (fun b => m (c, b)) (Proc.devRef .tc main_v11) : FVec F S1024x4096 .bf16)
    = fused (m ((c : Thread nD τ).loc main_arg9)) (m ((c : Thread nD τ).loc main_arg10)) (m ((c : Thread nD τ).loc main_arg11)) (m ((c : Thread nD τ).loc main_arg12)) := by
  dsimp only [hostOps0]; after_results; rfl
theorem after_v13 : (StableHlo.after hostOps0 (fun b => m (c, b)) (Proc.devRef .tc main_v13) : FVec F S1x4096 .f32)
    = fusedB (m ((c : Thread nD τ).loc main_arg13)) (m ((c : Thread nD τ).loc main_arg14)) (m ((c : Thread nD τ).loc main_arg15)) (m ((c : Thread nD τ).loc main_arg16)) := by
  dsimp only [hostOps0]; after_results; rfl
end After

end Cert.KernelIdeal.HostV

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.KernelCell.lean ====
/-
  The kernel body's arithmetic, read entry by entry at the exact instance.
-/
import proofs.«135092_j51565377355780_2_alg».proof.Proof.Gen.KernelIdeal.Skeleton
import proofs.«135092_j51565377355780_2_alg».proof.Proof.Cell
import proofs.«135092_j51565377355780_2_alg».proof.Proof.LibDense
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Cell

variable (v0 v2 : Vec Ideal S128x1024 .f32) (v4 v7 : Vec Ideal S1024x4096 .bf16) (v11 : Vec Ideal S1x4096 .f32)
  (v21 v22 v23 : Vec Ideal S128x1024 .f32) (p : Fin 128) (q : Fin 1024)

/-- The product's dimension numbers are the plain ones: the left operand's second axis against the right operand's first. -/
theorem dot_eq_plain : dot_S128x1024_S1024x4096_S128x4096_1_0_0_1_n_n = DotDims.plain 128 1024 4096 := rfl

/-- The fused pre-activation block at (p, q'): the two matrix products into the zero accumulator, added, plus the bias row. -/
theorem pay1_apply (q' : Fin 4096) :
    k0_pay1 (F := Ideal) v0 v2 v4 v7 v11 (ix2 p q') = bpre v0 v2 v4 v7 v11 p q' := by
  unfold k0_pay1 bpre
  show (matmul (F := Ideal) dot_S128x1024_S1024x4096_S128x4096_1_0_0_1_n_n none (truncf (F := Ideal) .bf16 v0 bitsLt_bf16_f32)
          (shapeCast S1024x4096 v4 shapeCasts_S1024x4096_S1024x4096) (constant S128x4096 .f32 0x00000000#32) (ix2 p q')
        + matmul (F := Ideal) dot_S128x1024_S1024x4096_S128x4096_1_0_0_1_n_n none (truncf (F := Ideal) .bf16 v2 bitsLt_bf16_f32)
          (shapeCast S1024x4096 v7 shapeCasts_S1024x4096_S1024x4096) (constant S128x4096 .f32 0x00000000#32) (ix2 p q'))
        + broadcastTo S128x4096 (shapeCast S1x4096 v11 shapeCasts_S1x4096_S1x4096) broadcasts_S1x4096_S128x4096 (ix2 p q') = _
  rw [shapeCast_self, shapeCast_self, shapeCast_self, dot_eq_plain]
  refine congrArg₂ (· + ·) (congrArg₂ (· + ·) ?_ ?_) ?_
  · exact Cert.LibDense.plain_matmul_apply none _ _ p q'
  · exact Cert.LibDense.plain_matmul_apply none _ _ p q'
  · exact broadcastTo_1b_ab_apply _ _ p q'

/-- The columns 1024 … 2047 of the pre-activation block are the input gate's. -/
theorem pay2_apply :
    k0_pay2 (F := Ideal) v0 v2 v4 v7 v11 (ix2 p q) = bpre v0 v2 v4 v7 v11 p (gcol 1 q) := by
  unfold k0_pay2
  refine (slice2_axis1_apply 1024 _ _ p q (gcol 1 q) ?_).trans (pay1_apply v0 v2 v4 v7 v11 p (gcol 1 q))
  show 1 * 1024 + q.val = 1024 + q.val
  omega

/-- The columns 2048 … 3071 of the pre-activation block are the forget gate's. -/
theorem pay3_apply :
    k0_pay3 (F := Ideal) v0 v2 v4 v7 v11 (ix2 p q) = bpre v0 v2 v4 v7 v11 p (gcol 2 q) := by
  unfold k0_pay3
  refine (slice2_axis1_apply 2048 _ _ p q (gcol 2 q) ?_).trans (pay1_apply v0 v2 v4 v7 v11 p (gcol 2 q))
  show 2 * 1024 + q.val = 2048 + q.val
  omega

/-- The columns 0 … 1023 of the pre-activation block are the cell input's. -/
theorem slice0_apply :
    extractStridedSlice S128x1024 ![0, 0] (k0_pay1 (F := Ideal) v0 v2 v4 v7 v11) slices_S128x4096_o0_0_S128x1024 (ix2 p q)
      = bpre v0 v2 v4 v7 v11 p (gcol 0 q) := by
  refine (slice2_axis1_apply 0 _ _ p q (gcol 0 q) ?_).trans (pay1_apply v0 v2 v4 v7 v11 p (gcol 0 q))
  show 0 * 1024 + q.val = 0 + q.val
  omega

/-- The columns 3072 … 4095 of the pre-activation block are the output gate's. -/
theorem slice3_apply :
    extractStridedSlice S128x1024 ![0, 3072] (k0_pay1 (F := Ideal) v0 v2 v4 v7 v11) slices_S128x4096_o0_3072_S128x1024 (ix2 p q)
      = bpre v0 v2 v4 v7 v11 p (gcol 3 q) := by
  refine (slice2_axis1_apply 3072 _ _ p q (gcol 3 q) ?_).trans (pay1_apply v0 v2 v4 v7 v11 p (gcol 3 q))
  show 3 * 1024 + q.val = 3072 + q.val
  omega

/-- The new stabilizer block. -/
theorem pay4_apply :
    k0_pay4 (F := Ideal) v0 v2 v4 v7 v11 v23 (ix2 p q)
      = mNew (bpre v0 v2 v4 v7 v11 p (gcol 1 q)) (bpre v0 v2 v4 v7 v11 p (gcol 2 q)) (v23 (ix2 p q)) := by
  unfold k0_pay4 mNew
  show max (k0_pay3 (F := Ideal) v0 v2 v4 v7 v11 (ix2 p q) + v23 (ix2 p q)) (k0_pay2 (F := Ideal) v0 v2 v4 v7 v11 (ix2 p q)) = _
  rw [pay3_apply, pay2_apply]

/-- The stabilized input gate block. -/
theorem pay5_apply :
    k0_pay5 (F := Ideal) v0 v2 v4 v7 v11 v23 (ix2 p q)
      = iHat (bpre v0 v2 v4 v7 v11 p (gcol 1 q)) (bpre v0 v2 v4 v7 v11 p (gcol 2 q)) (v23 (ix2 p q)) := by
  unfold k0_pay5 iHat
  show Ideal.exp (k0_pay2 (F := Ideal) v0 v2 v4 v7 v11 (ix2 p q) - k0_pay4 (F := Ideal) v0 v2 v4 v7 v11 v23 (ix2 p q)) = _
  rw [pay2_apply, pay4_apply]

/-- The stabilized forget gate block. -/
theorem pay6_apply :
    k0_pay6 (F := Ideal) v0 v2 v4 v7 v11 v23 (ix2 p q)
      = fHat (bpre v0 v2 v4 v7 v11 p (gcol 1 q)) (bpre v0 v2 v4 v7 v11 p (gcol 2 q)) (v23 (ix2 p q)) := by
  unfold k0_pay6 fHat
  show Ideal.exp ((k0_pay3 (F := Ideal) v0 v2 v4 v7 v11 (ix2 p q) + v23 (ix2 p q))
      - k0_pay4 (F := Ideal) v0 v2 v4 v7 v11 v23 (ix2 p q)) = _
  rw [pay3_apply, pay4_apply]

/-- The new cell-state block. -/
theorem pay7_apply :
    k0_pay7 (F := Ideal) v0 v2 v4 v7 v11 v21 v23 (ix2 p q)
      = cNew (bpre v0 v2 v4 v7 v11 p (gcol 0 q)) (bpre v0 v2 v4 v7 v11 p (gcol 1 q)) (bpre v0 v2 v4 v7 v11 p (gcol 2 q))
          (v21 (ix2 p q)) (v23 (ix2 p q)) := by
  unfold k0_pay7 cNew
  show k0_pay6 (F := Ideal) v0 v2 v4 v7 v11 v23 (ix2 p q) * v21 (ix2 p q)
      + k0_pay5 (F := Ideal) v0 v2 v4 v7 v11 v23 (ix2 p q)
        * Ideal.tanh (extractStridedSlice S128x1024 ![0, 0] (k0_pay1 (F := Ideal) v0 v2 v4 v7 v11)
            slices_S128x4096_o0_0_S128x1024 (ix2 p q)) = _
  rw [pay6_apply, pay5_apply, slice0_apply]

/-- The new normalizer block. -/
theorem pay8_apply :
    k0_pay8 (F := Ideal) v0 v2 v4 v7 v11 v22 v23 (ix2 p q)
      = nNew (bpre v0 v2 v4 v7 v11 p (gcol 1 q)) (bpre v0 v2 v4 v7 v11 p (gcol 2 q)) (v22 (ix2 p q)) (v23 (ix2 p q)) := by
  unfold k0_pay8 nNew
  show k0_pay6 (F := Ideal) v0 v2 v4 v7 v11 v23 (ix2 p q) * v22 (ix2 p q)
      + k0_pay5 (F := Ideal) v0 v2 v4 v7 v11 v23 (ix2 p q) = _
  rw [pay6_apply, pay5_apply]

/-- The new hidden-state block. -/
theorem pay9_apply :
    k0_pay9 (F := Ideal) v0 v2 v4 v7 v11 v21 v22 v23 (ix2 p q)
      = hNew (bpre v0 v2 v4 v7 v11 p (gcol 0 q)) (bpre v0 v2 v4 v7 v11 p (gcol 1 q)) (bpre v0 v2 v4 v7 v11 p (gcol 2 q))
          (bpre v0 v2 v4 v7 v11 p (gcol 3 q)) (v21 (ix2 p q)) (v22 (ix2 p q)) (v23 (ix2 p q)) := by
  unfold k0_pay9 hNew
  show Ideal.div
      (Ideal.logistic (extractStridedSlice S128x1024 ![0, 3072] (k0_pay1 (F := Ideal) v0 v2 v4 v7 v11)
          slices_S128x4096_o0_3072_S128x1024 (ix2 p q))
        * k0_pay7 (F := Ideal) v0 v2 v4 v7 v11 v21 v23 (ix2 p q))
      (k0_pay8 (F := Ideal) v0 v2 v4 v7 v11 v22 v23 (ix2 p q)) = _
  rw [slice3_apply, pay7_apply, pay8_apply]

end Cert.KernelIdeal.Pay

end
-- ==== Proof.KernelIdealValue.lean ====
/-
  The idealized kernel's four result arrays, entry by entry (exact instance).

  Grid point t works on rows 128·t … 128·t + 127.  Its input blocks are those rows of x, h_prev, c_prev, n_prev and
  m_prev; the fused weights and the fused bias are whole at every point.  Row p of the point's fused pre-activation, at
  column g · 1024 + j, is therefore gate g's pre-activation of the whole arrays at row 128·t + p and feature j, and what
  the point writes back is rows 128·t … 128·t + 127 of the specification's arrays.  The 128 points' row blocks tile the
  16384 rows, so after the run each result array is the specification's array.
-/
import proofs.«135092_j51565377355780_2_alg».proof.Proof.KernelIdealFrame
import proofs.«135092_j51565377355780_2_alg».proof.Proof.KernelIdealHost
import proofs.«135092_j51565377355780_2_alg».proof.Proof.KernelCell
import proofs.«135092_j51565377355780_2_alg».proof.Proof.Cell
import Idealize.ShloMosaic.Lib.Pipeline.Value

noncomputable section

namespace Cert.KernelIdeal.Val

open Cert.KernelIdeal Cert.KernelIdeal.Gen Cert.KernelIdeal.Frm Cert.Cell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: a data window's block index is (t, 0); a resident window's is (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of grid point `t`'s block is row `128·t + p` of the batch. -/
def row (t : Fin cfg0.N) (p : Fin 128) : Fin 16384 :=
  ⟨t.val * 128 + p.val, by have h1 : t.val < 128 := lt_of_lt_of_eq t.isLt N_0; have h2 := p.isLt; omega⟩

/-! ## The input blocks, read -/

/-- Data window 0's block at point `t` holds rows 128·t … of argument 0. -/
theorem blk0 (c : Dev nD) (t : Fin cfg0.N) (p : Fin 128) (k : Fin 1024) :
    iblk m c 0 t (ix2 p k) = m ((c : Thread nD τ).loc main_arg0) (ix2 (row t p) k) := by
  refine Eq.trans ?_ (congrFun (V_main_arg0 m c) (ix2 (row t p) k))
  show V m c main_arg0 (((cfg0.win 0).blk t).view.emb (ix2 p k)) = V m c main_arg0 (ix2 (row t p) k)
  refine congrArg _ (funext fun a => Fin.ext ?_)
  obtain ⟨e0, e1, -, -, -, -, -, -, -, -, -, -, -, -, -, -, -, -, -, -, -, -, -, -⟩ := idx_facts t
  match a with
  | ⟨0, _⟩ => show win0_0.index t (0 : Fin 2) * 128 + 1 * p.val = t.val * 128 + p.val; omega
  | ⟨1, _⟩ => show win0_0.index t (1 : Fin 2) * 1024 + 1 * k.val = k.val; omega
/-- Data window 1's block at point `t` holds rows 128·t … of argument 1. -/
theorem blk1 (c : Dev nD) (t : Fin cfg0.N) (p : Fin 128) (k : Fin 1024) :
    iblk m c 1 t (ix2 p k) = m ((c : Thread nD τ).loc main_arg1) (ix2 (row t p) k) := by
  refine Eq.trans ?_ (congrFun (V_main_arg1 m c) (ix2 (row t p) k))
  show V m c main_arg1 (((cfg0.win 1).blk t).view.emb (ix2 p k)) = V m c main_arg1 (ix2 (row t p) k)
  refine congrArg _ (funext fun a => Fin.ext ?_)
  obtain ⟨-, -, e0, e1, -, -, -, -, -, -, -, -, -, -, -, -, -, -, -, -, -, -, -, -⟩ := idx_facts t
  match a with
  | ⟨0, _⟩ => show win0_1.index t (0 : Fin 2) * 128 + 1 * p.val = t.val * 128 + p.val; omega
  | ⟨1, _⟩ => show win0_1.index t (1 : Fin 2) * 1024 + 1 * k.val = k.val; omega
/-- Data window 2's block at point `t` holds rows 128·t … of argument 2. -/
theorem blk2 (c : Dev nD) (t : Fin cfg0.N) (p : Fin 128) (k : Fin 1024) :
    iblk m c 2 t (ix2 p k) = m ((c : Thread nD τ).loc main_arg2) (ix2 (row t p) k) := by
  refine Eq.trans ?_ (congrFun (V_main_arg2 m c) (ix2 (row t p) k))
  show V m c main_arg2 (((cfg0.win 2).blk t).view.emb (ix2 p k)) = V m c main_arg2 (ix2 (row t p) k)
  refine congrArg _ (funext fun a => Fin.ext ?_)
  obtain ⟨-, -, -, -, e0, e1, -, -, -, -, -, -, -, -, -, -, -, -, -, -, -, -, -, -⟩ := idx_facts t
  match a with
  | ⟨0, _⟩ => show win0_2.index t (0 : Fin 2) * 128 + 1 * p.val = t.val * 128 + p.val; omega
  | ⟨1, _⟩ => show win0_2.index t (1 : Fin 2) * 1024 + 1 * k.val = k.val; omega
/-- Data window 3's block at point `t` holds rows 128·t … of argument 3. -/
theorem blk3 (c : Dev nD) (t : Fin cfg0.N) (p : Fin 128) (k : Fin 1024) :
    iblk m c 3 t (ix2 p k) = m ((c : Thread nD τ).loc main_arg3) (ix2 (row t p) k) := by
  refine Eq.trans ?_ (congrFun (V_main_arg3 m c) (ix2 (row t p) k))
  show V m c main_arg3 (((cfg0.win 3).blk t).view.emb (ix2 p k)) = V m c main_arg3 (ix2 (row t p) k)
  refine congrArg _ (funext fun a => Fin.ext ?_)
  obtain ⟨-, -, -, -, -, -, e0, e1, -, -, -, -, -, -, -, -, -, -, -, -, -, -, -, -⟩ := idx_facts t
  match a with
  | ⟨0, _⟩ => show win0_3.index t (0 : Fin 2) * 128 + 1 * p.val = t.val * 128 + p.val; omega
  | ⟨1, _⟩ => show win0_3.index t (1 : Fin 2) * 1024 + 1 * k.val = k.val; omega
/-- Data window 4's block at point `t` holds rows 128·t … of argument 4. -/
theorem blk4 (c : Dev nD) (t : Fin cfg0.N) (p : Fin 128) (k : Fin 1024) :
    iblk m c 4 t (ix2 p k) = m ((c : Thread nD τ).loc main_arg4) (ix2 (row t p) k) := by
  refine Eq.trans ?_ (congrFun (V_main_arg4 m c) (ix2 (row t p) k))
  show V m c main_arg4 (((cfg0.win 4).blk t).view.emb (ix2 p k)) = V m c main_arg4 (ix2 (row t p) k)
  refine congrArg _ (funext fun a => Fin.ext ?_)
  obtain ⟨-, -, -, -, -, -, -, -, e0, e1, -, -, -, -, -, -, -, -, -, -, -, -, -, -⟩ := idx_facts t
  match a with
  | ⟨0, _⟩ => show win0_4.index t (0 : Fin 2) * 128 + 1 * p.val = t.val * 128 + p.val; omega
  | ⟨1, _⟩ => show win0_4.index t (1 : Fin 2) * 1024 + 1 * k.val = k.val; omega
/-- Resident window 5's block is its whole array at every point. -/
theorem blk5 (c : Dev nD) (t : Fin cfg0.N) (k : Fin 1024) (q : Fin 4096) :
    iblk m c 5 t (ix2 k q) = V m c main_v5 (ix2 k q) := by
  show V m c main_v5 (((cfg0.win 5).blk t).view.emb (ix2 k q)) = V m c main_v5 (ix2 k q)
  refine congrArg _ (funext fun a => Fin.ext ?_)
  obtain ⟨-, -, -, -, -, -, -, -, -, -, -, -, -, -, -, -, -, -, e0, e1, -, -, -, -⟩ := idx_facts t
  match a with
  | ⟨0, _⟩ => show win0_5.index t (0 : Fin 2) * 1024 + 1 * k.val = k.val; omega
  | ⟨1, _⟩ => show win0_5.index t (1 : Fin 2) * 4096 + 1 * q.val = q.val; omega
/-- Resident window 6's block is its whole array at every point. -/
theorem blk6 (c : Dev nD) (t : Fin cfg0.N) (k : Fin 1024) (q : Fin 4096) :
    iblk m c 6 t (ix2 k q) = V m c main_v11 (ix2 k q) := by
  show V m c main_v11 (((cfg0.win 6).blk t).view.emb (ix2 k q)) = V m c main_v11 (ix2 k q)
  refine congrArg _ (funext fun a => Fin.ext ?_)
  obtain ⟨-, -, -, -, -, -, -, -, -, -, -, -, -, -, -, -, -, -, -, -, e0, e1, -, -⟩ := idx_facts t
  match a with
  | ⟨0, _⟩ => show win0_6.index t (0 : Fin 2) * 1024 + 1 * k.val = k.val; omega
  | ⟨1, _⟩ => show win0_6.index t (1 : Fin 2) * 4096 + 1 * q.val = q.val; omega
/-- Resident window 7's block is its whole array at every point. -/
theorem blk7 (c : Dev nD) (t : Fin cfg0.N) (k : Fin 1) (q : Fin 4096) :
    iblk m c 7 t (ix2 k q) = V m c main_v13 (ix2 k q) := by
  show V m c main_v13 (((cfg0.win 7).blk t).view.emb (ix2 k q)) = V m c main_v13 (ix2 k q)
  refine congrArg _ (funext fun a => Fin.ext ?_)
  obtain ⟨-, -, -, -, -, -, -, -, -, -, -, -, -, -, -, -, -, -, -, -, -, -, e0, e1⟩ := idx_facts t
  match a with
  | ⟨0, _⟩ => show win0_7.index t (0 : Fin 2) * 1 + 1 * k.val = k.val; omega
  | ⟨1, _⟩ => show win0_7.index t (1 : Fin 2) * 4096 + 1 * q.val = q.val; omega

/-! ## The fused pre-activation of a point's blocks is the gates' pre-activation of the arrays -/

theorem bpre0 (c : Dev nD) (t : Fin cfg0.N) (p : Fin 128) (q : Fin 1024) :
    bpre (iblk m c 0 t) (iblk m c 1 t) (iblk m c 5 t) (iblk m c 6 t) (iblk m c 7 t) p (gcol 0 q)
      = pre (m ((c : Thread nD τ).loc main_arg0)) (m ((c : Thread nD τ).loc main_arg1)) (m ((c : Thread nD τ).loc main_arg5)) (m ((c : Thread nD τ).loc main_arg9)) (m ((c : Thread nD τ).loc main_arg13)) (row t p) q :=
  bpre_eq (iblk m c 0 t) (iblk m c 1 t) (iblk m c 5 t) (iblk m c 6 t) (iblk m c 7 t) (m ((c : Thread nD τ).loc main_arg0)) (m ((c : Thread nD τ).loc main_arg1)) (m ((c : Thread nD τ).loc main_arg5)) (m ((c : Thread nD τ).loc main_arg9)) (m ((c : Thread nD τ).loc main_arg13)) p (row t p) (gcol 0 q) q
    (fun k => blk0 m c t p k) (fun k => blk1 m c t p k)
    (fun k => (blk5 m c t k (gcol 0 q)).trans ((congrFun (HostV.after_v5 m c) _).trans (HostV.fused0 _ _ _ _ k q)))
    (fun k => (blk6 m c t k (gcol 0 q)).trans ((congrFun (HostV.after_v11 m c) _).trans (HostV.fused0 _ _ _ _ k q)))
    ((blk7 m c t 0 (gcol 0 q)).trans ((congrFun (HostV.after_v13 m c) _).trans (HostV.fusedB0 q _ _ _ _)))
theorem bpre1 (c : Dev nD) (t : Fin cfg0.N) (p : Fin 128) (q : Fin 1024) :
    bpre (iblk m c 0 t) (iblk m c 1 t) (iblk m c 5 t) (iblk m c 6 t) (iblk m c 7 t) p (gcol 1 q)
      = pre (m ((c : Thread nD τ).loc main_arg0)) (m ((c : Thread nD τ).loc main_arg1)) (m ((c : Thread nD τ).loc main_arg6)) (m ((c : Thread nD τ).loc main_arg10)) (m ((c : Thread nD τ).loc main_arg14)) (row t p) q :=
  bpre_eq (iblk m c 0 t) (iblk m c 1 t) (iblk m c 5 t) (iblk m c 6 t) (iblk m c 7 t) (m ((c : Thread nD τ).loc main_arg0)) (m ((c : Thread nD τ).loc main_arg1)) (m ((c : Thread nD τ).loc main_arg6)) (m ((c : Thread nD τ).loc main_arg10)) (m ((c : Thread nD τ).loc main_arg14)) p (row t p) (gcol 1 q) q
    (fun k => blk0 m c t p k) (fun k => blk1 m c t p k)
    (fun k => (blk5 m c t k (gcol 1 q)).trans ((congrFun (HostV.after_v5 m c) _).trans (HostV.fused1 _ _ _ _ k q)))
    (fun k => (blk6 m c t k (gcol 1 q)).trans ((congrFun (HostV.after_v11 m c) _).trans (HostV.fused1 _ _ _ _ k q)))
    ((blk7 m c t 0 (gcol 1 q)).trans ((congrFun (HostV.after_v13 m c) _).trans (HostV.fusedB1 q _ _ _ _)))
theorem bpre2 (c : Dev nD) (t : Fin cfg0.N) (p : Fin 128) (q : Fin 1024) :
    bpre (iblk m c 0 t) (iblk m c 1 t) (iblk m c 5 t) (iblk m c 6 t) (iblk m c 7 t) p (gcol 2 q)
      = pre (m ((c : Thread nD τ).loc main_arg0)) (m ((c : Thread nD τ).loc main_arg1)) (m ((c : Thread nD τ).loc main_arg7)) (m ((c : Thread nD τ).loc main_arg11)) (m ((c : Thread nD τ).loc main_arg15)) (row t p) q :=
  bpre_eq (iblk m c 0 t) (iblk m c 1 t) (iblk m c 5 t) (iblk m c 6 t) (iblk m c 7 t) (m ((c : Thread nD τ).loc main_arg0)) (m ((c : Thread nD τ).loc main_arg1)) (m ((c : Thread nD τ).loc main_arg7)) (m ((c : Thread nD τ).loc main_arg11)) (m ((c : Thread nD τ).loc main_arg15)) p (row t p) (gcol 2 q) q
    (fun k => blk0 m c t p k) (fun k => blk1 m c t p k)
    (fun k => (blk5 m c t k (gcol 2 q)).trans ((congrFun (HostV.after_v5 m c) _).trans (HostV.fused2 _ _ _ _ k q)))
    (fun k => (blk6 m c t k (gcol 2 q)).trans ((congrFun (HostV.after_v11 m c) _).trans (HostV.fused2 _ _ _ _ k q)))
    ((blk7 m c t 0 (gcol 2 q)).trans ((congrFun (HostV.after_v13 m c) _).trans (HostV.fusedB2 q _ _ _ _)))
theorem bpre3 (c : Dev nD) (t : Fin cfg0.N) (p : Fin 128) (q : Fin 1024) :
    bpre (iblk m c 0 t) (iblk m c 1 t) (iblk m c 5 t) (iblk m c 6 t) (iblk m c 7 t) p (gcol 3 q)
      = pre (m ((c : Thread nD τ).loc main_arg0)) (m ((c : Thread nD τ).loc main_arg1)) (m ((c : Thread nD τ).loc main_arg8)) (m ((c : Thread nD τ).loc main_arg12)) (m ((c : Thread nD τ).loc main_arg16)) (row t p) q :=
  bpre_eq (iblk m c 0 t) (iblk m c 1 t) (iblk m c 5 t) (iblk m c 6 t) (iblk m c 7 t) (m ((c : Thread nD τ).loc main_arg0)) (m ((c : Thread nD τ).loc main_arg1)) (m ((c : Thread nD τ).loc main_arg8)) (m ((c : Thread nD τ).loc main_arg12)) (m ((c : Thread nD τ).loc main_arg16)) p (row t p) (gcol 3 q) q
    (fun k => blk0 m c t p k) (fun k => blk1 m c t p k)
    (fun k => (blk5 m c t k (gcol 3 q)).trans ((congrFun (HostV.after_v5 m c) _).trans (HostV.fused3 _ _ _ _ k q)))
    (fun k => (blk6 m c t k (gcol 3 q)).trans ((congrFun (HostV.after_v11 m c) _).trans (HostV.fused3 _ _ _ _ k q)))
    ((blk7 m c t 0 (gcol 3 q)).trans ((congrFun (HostV.after_v13 m c) _).trans (HostV.fusedB3 q _ _ _ _)))

/-! ## What each point writes back, and the arrays after the run -/

/-- Point `t` writes back rows 128·t … of `Gh`. -/
theorem flushed8_eq (c : Dev nD) (t : Fin cfg0.N) :
    (dats m 0 c).flushed 8 t = ((cfg0.win 8).blk t).view.read (Elt Ideal) (Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  show (cfg0.win 8).cut (grid0.coords t) ((dats m 0 c).after 8 t) = _
  rw [after0_8]
  unfold out0_8
  rw [View.canon_unit_zero hz]
  simp only [View.ld_unit_zero (S := S128x1024) hz, View.ld_unit_zero (S := S1024x4096) hz, View.ld_unit_zero (S := S1x4096) hz]
  funext y
  obtain ⟨p, q, rfl⟩ : ∃ (p : Fin 128) (q : Fin 1024), y = ix2 p q := ⟨y 0, y 1, eq_ix2 y⟩
  refine (Pay.pay9_apply (iblk m c 0 t) (iblk m c 1 t) (iblk m c 5 t) (iblk m c 6 t) (iblk m c 7 t) (iblk m c 2 t) (iblk m c 3 t) (iblk m c 4 t) p q).trans ?_
  rw [bpre0 m c t p q, bpre1 m c t p q, bpre2 m c t p q, bpre3 m c t p q, blk2 m c t p q, blk3 m c t p q, blk4 m c t p q]
  have hemb : ((cfg0.win 8).blk t).view.emb (ix2 p q) = ix2 (row t p) q := by
    funext a; apply Fin.ext
    obtain ⟨-, -, -, -, -, -, -, -, -, -, e0, e1, -, -, -, -, -, -, -, -, -, -, -, -⟩ := idx_facts t
    match a with
    | ⟨0, _⟩ => show win0_8.index t (0 : Fin 2) * 128 + 1 * p.val = t.val * 128 + p.val; omega
    | ⟨1, _⟩ => show win0_8.index t (1 : Fin 2) * 1024 + 1 * q.val = q.val; omega
  show _ = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (((cfg0.win 8).blk t).view.emb (ix2 p q))
  rw [hemb]
  rfl

theorem mem_blk8 (t : Fin cfg0.N) (i : S16384x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v14_0).slice (win0_8.rect t)).set ↔ _
  rw [View.set_slice_whole, Rect.mem_set_unit]
  exact Iff.rfl

/-- Every row of the array is in some point's block. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  have hN : cfg0.N = 128 := N_0
  let t : Fin cfg0.N := ⟨(i 0).val / 128, by rw [hN]; omega⟩
  refine ⟨t, flush0_8 t, ?_⟩
  rw [mem_blk8]
  obtain ⟨-, -, -, -, -, -, -, -, -, -, e0, e1, -, -, -, -, -, -, -, -, -, -, -, -⟩ := idx_facts t
  have ht : t.val = (i 0).val / 128 := rfl
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 1024 ≤ (i 1).val ∧ (i 1).val < win0_8.index t (1 : Fin 2) * 1024 + 1024; omega

/-- After the run the array is `Gh` of the arguments. -/
theorem final8 (c : Dev nD) : (dats m 0 c).arrAt 8 cfg0.N = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (dats m 0 c).arrAt_eq_of_cover 8 (Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (fun t _ => flushed8_eq m c t) cover8

/-- Point `t` writes back rows 128·t … of `Gc`. -/
theorem flushed9_eq (c : Dev nD) (t : Fin cfg0.N) :
    (dats m 0 c).flushed 9 t = ((cfg0.win 9).blk t).view.read (Elt Ideal) (Gc (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15))) := by
  show (cfg0.win 9).cut (grid0.coords t) ((dats m 0 c).after 9 t) = _
  rw [after0_9]
  unfold out0_9
  rw [View.canon_unit_zero hz]
  simp only [View.ld_unit_zero (S := S128x1024) hz, View.ld_unit_zero (S := S1024x4096) hz, View.ld_unit_zero (S := S1x4096) hz]
  funext y
  obtain ⟨p, q, rfl⟩ : ∃ (p : Fin 128) (q : Fin 1024), y = ix2 p q := ⟨y 0, y 1, eq_ix2 y⟩
  refine (Pay.pay7_apply (iblk m c 0 t) (iblk m c 1 t) (iblk m c 5 t) (iblk m c 6 t) (iblk m c 7 t) (iblk m c 2 t) (iblk m c 4 t) p q).trans ?_
  rw [bpre0 m c t p q, bpre1 m c t p q, bpre2 m c t p q, blk2 m c t p q, blk4 m c t p q]
  have hemb : ((cfg0.win 9).blk t).view.emb (ix2 p q) = ix2 (row t p) q := by
    funext a; apply Fin.ext
    obtain ⟨-, -, -, -, -, -, -, -, -, -, -, -, e0, e1, -, -, -, -, -, -, -, -, -, -⟩ := idx_facts t
    match a with
    | ⟨0, _⟩ => show win0_9.index t (0 : Fin 2) * 128 + 1 * p.val = t.val * 128 + p.val; omega
    | ⟨1, _⟩ => show win0_9.index t (1 : Fin 2) * 1024 + 1 * q.val = q.val; omega
  show _ = Gc (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (((cfg0.win 9).blk t).view.emb (ix2 p q))
  rw [hemb]
  rfl

theorem mem_blk9 (t : Fin cfg0.N) (i : S16384x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v14_1).slice (win0_9.rect t)).set ↔ _
  rw [View.set_slice_whole, Rect.mem_set_unit]
  exact Iff.rfl

/-- Every row of the array is in some point's block. -/
theorem cover9 (i : S16384x1024.Idx) : ∃ t : Fin cfg0.N, (cfg0.win 9).flush t = true ∧ i ∈ ((cfg0.win 9).blk t).view.set := by
  have hi0 : (i 0).val < 16384 := (i 0).isLt
  have hi1 : (i 1).val < 1024 := (i 1).isLt
  have hN : cfg0.N = 128 := N_0
  let t : Fin cfg0.N := ⟨(i 0).val / 128, by rw [hN]; omega⟩
  refine ⟨t, flush0_9 t, ?_⟩
  rw [mem_blk9]
  obtain ⟨-, -, -, -, -, -, -, -, -, -, -, -, e0, e1, -, -, -, -, -, -, -, -, -, -⟩ := idx_facts t
  have ht : t.val = (i 0).val / 128 := rfl
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 1024 ≤ (i 1).val ∧ (i 1).val < win0_9.index t (1 : Fin 2) * 1024 + 1024; omega

/-- After the run the array is `Gc` of the arguments. -/
theorem final9 (c : Dev nD) : (dats m 0 c).arrAt 9 cfg0.N = Gc (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) :=
  (dats m 0 c).arrAt_eq_of_cover 9 (Gc (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15))) (fun t _ => flushed9_eq m c t) cover9

/-- Point `t` writes back rows 128·t … of `Gn`. -/
theorem flushed10_eq (c : Dev nD) (t : Fin cfg0.N) :
    (dats m 0 c).flushed 10 t = ((cfg0.win 10).blk t).view.read (Elt Ideal) (Gn (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15))) := by
  show (cfg0.win 10).cut (grid0.coords t) ((dats m 0 c).after 10 t) = _
  rw [after0_10]
  unfold out0_10
  rw [View.canon_unit_zero hz]
  simp only [View.ld_unit_zero (S := S128x1024) hz, View.ld_unit_zero (S := S1024x4096) hz, View.ld_unit_zero (S := S1x4096) hz]
  funext y
  obtain ⟨p, q, rfl⟩ : ∃ (p : Fin 128) (q : Fin 1024), y = ix2 p q := ⟨y 0, y 1, eq_ix2 y⟩
  refine (Pay.pay8_apply (iblk m c 0 t) (iblk m c 1 t) (iblk m c 5 t) (iblk m c 6 t) (iblk m c 7 t) (iblk m c 3 t) (iblk m c 4 t) p q).trans ?_
  rw [bpre1 m c t p q, bpre2 m c t p q, blk3 m c t p q, blk4 m c t p q]
  have hemb : ((cfg0.win 10).blk t).view.emb (ix2 p q) = ix2 (row t p) q := by
    funext a; apply Fin.ext
    obtain ⟨-, -, -, -, -, -, -, -, -, -, -, -, -, -, e0, e1, -, -, -, -, -, -, -, -⟩ := idx_facts t
    match a with
    | ⟨0, _⟩ => show win0_10.index t (0 : Fin 2) * 128 + 1 * p.val = t.val * 128 + p.val; omega
    | ⟨1, _⟩ => show win0_10.index t (1 : Fin 2) * 1024 + 1 * q.val = q.val; omega
  show _ = Gn (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) (((cfg0.win 10).blk t).view.emb (ix2 p q))
  rw [hemb]
  rfl

theorem mem_blk10 (t : Fin cfg0.N) (i : S16384x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v14_2).slice (win0_10.rect t)).set ↔ _
  rw [View.set_slice_whole, Rect.mem_set_unit]
  exact Iff.rfl

/-- Every row of the array is in some point's block. -/
theorem cover10 (i : S16384x1024.Idx) : ∃ t : Fin cfg0.N, (cfg0.win 10).flush t = true ∧ i ∈ ((cfg0.win 10).blk t).view.set := by
  have hi0 : (i 0).val < 16384 := (i 0).isLt
  have hi1 : (i 1).val < 1024 := (i 1).isLt
  have hN : cfg0.N = 128 := N_0
  let t : Fin cfg0.N := ⟨(i 0).val / 128, by rw [hN]; omega⟩
  refine ⟨t, flush0_10 t, ?_⟩
  rw [mem_blk10]
  obtain ⟨-, -, -, -, -, -, -, -, -, -, -, -, -, -, e0, e1, -, -, -, -, -, -, -, -⟩ := idx_facts t
  have ht : t.val = (i 0).val / 128 := rfl
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 1024 ≤ (i 1).val ∧ (i 1).val < win0_10.index t (1 : Fin 2) * 1024 + 1024; omega

/-- After the run the array is `Gn` of the arguments. -/
theorem final10 (c : Dev nD) : (dats m 0 c).arrAt 10 cfg0.N = Gn (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) :=
  (dats m 0 c).arrAt_eq_of_cover 10 (Gn (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15))) (fun t _ => flushed10_eq m c t) cover10

/-- Point `t` writes back rows 128·t … of `Gm`. -/
theorem flushed11_eq (c : Dev nD) (t : Fin cfg0.N) :
    (dats m 0 c).flushed 11 t = ((cfg0.win 11).blk t).view.read (Elt Ideal) (Gm (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15))) := by
  show (cfg0.win 11).cut (grid0.coords t) ((dats m 0 c).after 11 t) = _
  rw [after0_11]
  unfold out0_11
  rw [View.canon_unit_zero hz]
  simp only [View.ld_unit_zero (S := S128x1024) hz, View.ld_unit_zero (S := S1024x4096) hz, View.ld_unit_zero (S := S1x4096) hz]
  funext y
  obtain ⟨p, q, rfl⟩ : ∃ (p : Fin 128) (q : Fin 1024), y = ix2 p q := ⟨y 0, y 1, eq_ix2 y⟩
  refine (Pay.pay4_apply (iblk m c 0 t) (iblk m c 1 t) (iblk m c 5 t) (iblk m c 6 t) (iblk m c 7 t) (iblk m c 4 t) p q).trans ?_
  rw [bpre1 m c t p q, bpre2 m c t p q, blk4 m c t p q]
  have hemb : ((cfg0.win 11).blk t).view.emb (ix2 p q) = ix2 (row t p) q := by
    funext a; apply Fin.ext
    obtain ⟨-, -, -, -, -, -, -, -, -, -, -, -, -, -, -, -, e0, e1, -, -, -, -, -, -⟩ := idx_facts t
    match a with
    | ⟨0, _⟩ => show win0_11.index t (0 : Fin 2) * 128 + 1 * p.val = t.val * 128 + p.val; omega
    | ⟨1, _⟩ => show win0_11.index t (1 : Fin 2) * 1024 + 1 * q.val = q.val; omega
  show _ = Gm (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) (((cfg0.win 11).blk t).view.emb (ix2 p q))
  rw [hemb]
  rfl

theorem mem_blk11 (t : Fin cfg0.N) (i : S16384x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v14_3).slice (win0_11.rect t)).set ↔ _
  rw [View.set_slice_whole, Rect.mem_set_unit]
  exact Iff.rfl

/-- Every row of the array is in some point's block. -/
theorem cover11 (i : S16384x1024.Idx) : ∃ t : Fin cfg0.N, (cfg0.win 11).flush t = true ∧ i ∈ ((cfg0.win 11).blk t).view.set := by
  have hi0 : (i 0).val < 16384 := (i 0).isLt
  have hi1 : (i 1).val < 1024 := (i 1).isLt
  have hN : cfg0.N = 128 := N_0
  let t : Fin cfg0.N := ⟨(i 0).val / 128, by rw [hN]; omega⟩
  refine ⟨t, flush0_11 t, ?_⟩
  rw [mem_blk11]
  obtain ⟨-, -, -, -, -, -, -, -, -, -, -, -, -, -, -, -, e0, e1, -, -, -, -, -, -⟩ := idx_facts t
  have ht : t.val = (i 0).val / 128 := rfl
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 1024 ≤ (i 1).val ∧ (i 1).val < win0_11.index t (1 : Fin 2) * 1024 + 1024; omega

/-- After the run the array is `Gm` of the arguments. -/
theorem final11 (c : Dev nD) : (dats m 0 c).arrAt 11 cfg0.N = Gm (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) :=
  (dats m 0 c).arrAt_eq_of_cover 11 (Gm (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15))) (fun t _ => flushed11_eq m c t) cover11

/-! ## The run, read -/

/-- Every weakly fair execution of the idealized kernel's @main terminates with the four result arrays at the
    specification's arrays of the arguments, and the arguments unchanged. -/
theorem run : θ_run defs (onTc (τ := τ) (main (F := Ideal))) ⟨m, fun _ => 0, ρ⟩ fun r => ∀ c : Dev nD,
      r.2.mem ((c : Thread nD τ).loc main_v14_0) = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v14_1) = Gc (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15))
      ∧ r.2.mem ((c : Thread nD τ).loc main_v14_2) = Gn (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15))
      ∧ r.2.mem ((c : Thread nD τ).loc main_v14_3) = Gm (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨((h c).1 8).trans (final8 m c), ((h c).1 9).trans (final9 m c),
      ((h c).1 10).trans (final10 m c), ((h c).1 11).trans (final11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩)
    (run_main m ρ)

end Cert.KernelIdeal.Val

end
-- ==== Proof.RefCell.lean ====
/-
  The reference program's four results are the cell's four arrays.

  Each gate's pre-activation stage — the row of x against the row of the gate's input weights (the program
  transposes the weight matrix and contracts along its first axis), plus the row of h against the row of the gate's
  recurrent weights, plus the gate's bias broadcast along rows — read at (r, j) is the cell's pre-activation
  pre (r, j).  The remaining stages act entry by entry and are the cell's scalar functions, the logistic being
  spelled 1 / (1 + exp (−o)) with the constant 1 given by its bit pattern.
-/
import proofs.«135092_j51565377355780_2_alg».proof.Proof.Gen.ReferenceIdeal.Read
import proofs.«135092_j51565377355780_2_alg».proof.Proof.Cell
import Idealize.ShloMosaic.Lib.IdealHost
import Idealize.ShloMosaic.Lib.ValueIdx
import Idealize.ShloMosaic.PureOps.Ideal

noncomputable section

namespace Cert.ReferenceIdeal.RefValue

open Cert.ReferenceIdeal Cert.ReferenceIdeal.Read Idealize.ShloMosaic Idealize.ShloMosaic.ValueIdx

/-- A batch array. -/
abbrev A : Type := (⟨S16384x1024, .f32⟩ : BufTy).Contents (Elt Ideal)
/-- A weight matrix. -/
abbrev M : Type := (⟨S1024x1024, .f32⟩ : BufTy).Contents (Elt Ideal)
/-- A bias vector. -/
abbrev B : Type := (⟨S1024, .f32⟩ : BufTy).Contents (Elt Ideal)

/-! ### The index work, once -/

/-- The left operand of the contraction is read at row `r`, position `k`. -/
theorem lidx_ix (r : Fin 16384) (j k : Fin 1024) : lidx_main_v1 (ix2 r j) k = ix2 r k :=
  funext fun a => Fin.ext (by match a with | ⟨0, _⟩ => rfl | ⟨1, _⟩ => rfl)

/-- The transposed weight matrix, read where the contraction reads its right operand, is the weight matrix at
    row `j`, position `k`. -/
theorem tidx_ix (r : Fin 16384) (j k : Fin 1024) : idx_main_v0 (ridx_main_v1 (ix2 r j) k) = ix2 j k :=
  funext fun a => Fin.ext (by match a with | ⟨0, _⟩ => rfl | ⟨1, _⟩ => rfl)

/-- The bias broadcast to the batch shape is read at feature `j`. -/
theorem bidx_ix (r : Fin 16384) (j : Fin 1024) : idx_main_v5 (idx_main_v6 (ix2 r j)) = ix1 j :=
  funext fun a => Fin.ext (by match a with | ⟨0, _⟩ => rfl)

/-- The pre-activation assembled from the operands read through the program's index functions is the cell's. -/
theorem pre_of (x h : A) (W R : M) (b : B) (r : Fin 16384) (j : Fin 1024) :
    ((∑ k : Fin 1024, x (lidx_main_v1 (ix2 r j) k) * W (idx_main_v0 (ridx_main_v1 (ix2 r j) k)))
      + (∑ k : Fin 1024, h (lidx_main_v1 (ix2 r j) k) * R (idx_main_v0 (ridx_main_v1 (ix2 r j) k))))
      + b (idx_main_v5 (idx_main_v6 (ix2 r j))) = Cert.Cell.pre x h W R b r j := by
  unfold Cert.Cell.pre
  rw [bidx_ix]
  refine congrArg₂ (· + ·) (congrArg₂ (· + ·) ?_ ?_) rfl
  · exact Finset.sum_congr rfl fun k _ => by rw [lidx_ix, tidx_ix]
  · exact Finset.sum_congr rfl fun k _ => by rw [lidx_ix, tidx_ix]

/-! ### The four gates -/

/-- The cell-input gate's pre-activation stage. -/
theorem pre_z (x0 x1 : A) (x5 x9 : M) (x13 : B) (r : Fin 16384) (j : Fin 1024) :
    val_main_v7 (F := Ideal) x0 x1 x5 x9 x13 (ix2 r j) = Cert.Cell.pre x0 x1 x5 x9 x13 r j := by
  rw [val_main_v7_apply, val_main_v4_apply, val_main_v1_apply, val_main_v3_apply, val_main_v6_apply,
    val_main_v5_apply]
  simp only [val_main_v0_apply, val_main_v2_apply]
  exact pre_of x0 x1 x5 x9 x13 r j

/-- The input gate's pre-activation stage. -/
theorem pre_i (x0 x1 : A) (x6 x10 : M) (x14 : B) (r : Fin 16384) (j : Fin 1024) :
    val_main_v15 (F := Ideal) x0 x1 x6 x10 x14 (ix2 r j) = Cert.Cell.pre x0 x1 x6 x10 x14 r j := by
  rw [val_main_v15_apply, val_main_v12_apply, val_main_v9_apply, val_main_v11_apply, val_main_v14_apply,
    val_main_v13_apply]
  simp only [val_main_v8_apply, val_main_v10_apply]
  exact pre_of x0 x1 x6 x10 x14 r j

/-- The forget gate's pre-activation stage. -/
theorem pre_f (x0 x1 : A) (x7 x11 : M) (x15 : B) (r : Fin 16384) (j : Fin 1024) :
    val_main_v23 (F := Ideal) x0 x1 x7 x11 x15 (ix2 r j) = Cert.Cell.pre x0 x1 x7 x11 x15 r j := by
  rw [val_main_v23_apply, val_main_v20_apply, val_main_v17_apply, val_main_v19_apply, val_main_v22_apply,
    val_main_v21_apply]
  simp only [val_main_v16_apply, val_main_v18_apply]
  exact pre_of x0 x1 x7 x11 x15 r j

/-- The output gate's pre-activation stage. -/
theorem pre_o (x0 x1 : A) (x8 x12 : M) (x16 : B) (r : Fin 16384) (j : Fin 1024) :
    val_main_v31 (F := Ideal) x0 x1 x8 x12 x16 (ix2 r j) = Cert.Cell.pre x0 x1 x8 x12 x16 r j := by
  rw [val_main_v31_apply, val_main_v28_apply, val_main_v25_apply, val_main_v27_apply, val_main_v30_apply,
    val_main_v29_apply]
  simp only [val_main_v24_apply, val_main_v26_apply]
  exact pre_of x0 x1 x8 x12 x16 r j

/-! ### The entrywise stages -/

/-- The broadcast constant is 1 at every entry. -/
theorem one_a (i : S16384x1024.Idx) : val_main_v35 (F := Ideal) i = 1 := by
  rw [val_main_v35_apply, val_main_cst_apply, Ideal.ofBits_def, Ideal.ofBits_one_f32]

/-- The second broadcast constant is 1 at every entry. -/
theorem one_b (i : S16384x1024.Idx) : val_main_v37 (F := Ideal) i = 1 := by
  rw [val_main_v37_apply, val_main_cst_0_apply, Ideal.ofBits_def, Ideal.ofBits_one_f32]

/-- The new stabilizer stage at an entry. -/
theorem m_at (x0 x1 x4 : A) (x6 x7 x10 x11 : M) (x14 x15 : B) (r : Fin 16384) (j : Fin 1024) :
    val_main_v40 (F := Ideal) x0 x1 x4 x6 x7 x10 x11 x14 x15 (ix2 r j)
      = Cert.Cell.mNew (Cert.Cell.pre x0 x1 x6 x10 x14 r j) (Cert.Cell.pre x0 x1 x7 x11 x15 r j) (x4 (ix2 r j)) := by
  show max (val_main_v23 (F := Ideal) x0 x1 x7 x11 x15 (ix2 r j) + x4 (ix2 r j))
      (val_main_v15 (F := Ideal) x0 x1 x6 x10 x14 (ix2 r j)) = _
  rw [pre_f, pre_i]
  rfl

/-- The stabilized input gate stage at an entry. -/
theorem ihat_at (x0 x1 x4 : A) (x6 x7 x10 x11 : M) (x14 x15 : B) (r : Fin 16384) (j : Fin 1024) :
    val_main_v42 (F := Ideal) x0 x1 x4 x6 x7 x10 x11 x14 x15 (ix2 r j)
      = Cert.Cell.iHat (Cert.Cell.pre x0 x1 x6 x10 x14 r j) (Cert.Cell.pre x0 x1 x7 x11 x15 r j) (x4 (ix2 r j)) := by
  show Ideal.exp (val_main_v15 (F := Ideal) x0 x1 x6 x10 x14 (ix2 r j)
      - val_main_v40 (F := Ideal) x0 x1 x4 x6 x7 x10 x11 x14 x15 (ix2 r j)) = _
  rw [m_at, pre_i]
  rfl

/-- The stabilized forget gate stage at an entry. -/
theorem fhat_at (x0 x1 x4 : A) (x6 x7 x10 x11 : M) (x14 x15 : B) (r : Fin 16384) (j : Fin 1024) :
    val_main_v45 (F := Ideal) x0 x1 x4 x6 x7 x10 x11 x14 x15 (ix2 r j)
      = Cert.Cell.fHat (Cert.Cell.pre x0 x1 x6 x10 x14 r j) (Cert.Cell.pre x0 x1 x7 x11 x15 r j) (x4 (ix2 r j)) := by
  show Ideal.exp ((val_main_v23 (F := Ideal) x0 x1 x7 x11 x15 (ix2 r j) + x4 (ix2 r j))
      - val_main_v40 (F := Ideal) x0 x1 x4 x6 x7 x10 x11 x14 x15 (ix2 r j)) = _
  rw [m_at, pre_f]
  rfl

/-- The new cell-state stage at an entry. -/
theorem c_at (x0 x1 x2 x4 : A) (x5 x6 x7 x9 x10 x11 : M) (x13 x14 x15 : B) (r : Fin 16384) (j : Fin 1024) :
    val_main_v48 (F := Ideal) x0 x1 x2 x4 x5 x6 x7 x9 x10 x11 x13 x14 x15 (ix2 r j)
      = Cert.Cell.cNew (Cert.Cell.pre x0 x1 x5 x9 x13 r j) (Cert.Cell.pre x0 x1 x6 x10 x14 r j)
          (Cert.Cell.pre x0 x1 x7 x11 x15 r j) (x2 (ix2 r j)) (x4 (ix2 r j)) := by
  show val_main_v45 (F := Ideal) x0 x1 x4 x6 x7 x10 x11 x14 x15 (ix2 r j) * x2 (ix2 r j)
      + val_main_v42 (F := Ideal) x0 x1 x4 x6 x7 x10 x11 x14 x15 (ix2 r j)
        * Ideal.tanh (val_main_v7 (F := Ideal) x0 x1 x5 x9 x13 (ix2 r j)) = _
  rw [fhat_at, ihat_at, pre_z]
  rfl

/-- The new normalizer stage at an entry. -/
theorem n_at (x0 x1 x3 x4 : A) (x6 x7 x10 x11 : M) (x14 x15 : B) (r : Fin 16384) (j : Fin 1024) :
    val_main_v50 (F := Ideal) x0 x1 x3 x4 x6 x7 x10 x11 x14 x15 (ix2 r j)
      = Cert.Cell.nNew (Cert.Cell.pre x0 x1 x6 x10 x14 r j) (Cert.Cell.pre x0 x1 x7 x11 x15 r j)
          (x3 (ix2 r j)) (x4 (ix2 r j)) := by
  show val_main_v45 (F := Ideal) x0 x1 x4 x6 x7 x10 x11 x14 x15 (ix2 r j) * x3 (ix2 r j)
      + val_main_v42 (F := Ideal) x0 x1 x4 x6 x7 x10 x11 x14 x15 (ix2 r j) = _
  rw [fhat_at, ihat_at]
  rfl

/-- The output gate stage at an entry: the logistic of the output pre-activation. -/
theorem sig_at (x0 x1 : A) (x8 x12 : M) (x16 : B) (r : Fin 16384) (j : Fin 1024) :
    val_main_v38 (F := Ideal) x0 x1 x8 x12 x16 (ix2 r j) = Ideal.logistic (Cert.Cell.pre x0 x1 x8 x12 x16 r j) := by
  show Ideal.div (val_main_v37 (F := Ideal) (ix2 r j))
      (val_main_v35 (F := Ideal) (ix2 r j) + Ideal.exp (-(val_main_v31 (F := Ideal) x0 x1 x8 x12 x16 (ix2 r j)))) = _
  rw [one_a, one_b, pre_o]
  rfl

/-- The new hidden-state stage at an entry. -/
theorem h_at (x0 x1 x2 x3 x4 : A) (x5 x6 x7 x8 x9 x10 x11 x12 : M) (x13 x14 x15 x16 : B)
    (r : Fin 16384) (j : Fin 1024) :
    val_main_v52 (F := Ideal) x0 x1 x2 x3 x4 x5 x6 x7 x8 x9 x10 x11 x12 x13 x14 x15 x16 (ix2 r j)
      = Cert.Cell.hNew (Cert.Cell.pre x0 x1 x5 x9 x13 r j) (Cert.Cell.pre x0 x1 x6 x10 x14 r j)
          (Cert.Cell.pre x0 x1 x7 x11 x15 r j) (Cert.Cell.pre x0 x1 x8 x12 x16 r j)
          (x2 (ix2 r j)) (x3 (ix2 r j)) (x4 (ix2 r j)) := by
  show Ideal.div (val_main_v38 (F := Ideal) x0 x1 x8 x12 x16 (ix2 r j)
        * val_main_v48 (F := Ideal) x0 x1 x2 x4 x5 x6 x7 x9 x10 x11 x13 x14 x15 (ix2 r j))
      (val_main_v50 (F := Ideal) x0 x1 x3 x4 x6 x7 x10 x11 x14 x15 (ix2 r j)) = _
  rw [sig_at, c_at, n_at]
  rfl

/-! ### The four results -/

theorem ref_m (x0 x1 x4 : A) (x6 x7 x10 x11 : M) (x14 x15 : B) :
    val_main_v40 (F := Ideal) x0 x1 x4 x6 x7 x10 x11 x14 x15 = Cert.Cell.Gm x0 x1 x4 x6 x7 x10 x11 x14 x15 := by
  funext i
  obtain ⟨r, j, rfl⟩ : ∃ (r : Fin 16384) (j : Fin 1024), i = ix2 r j := ⟨i 0, i 1, eq_ix2 i⟩
  exact m_at x0 x1 x4 x6 x7 x10 x11 x14 x15 r j

theorem ref_c (x0 x1 x2 x4 : A) (x5 x6 x7 x9 x10 x11 : M) (x13 x14 x15 : B) :
    val_main_v48 (F := Ideal) x0 x1 x2 x4 x5 x6 x7 x9 x10 x11 x13 x14 x15
      = Cert.Cell.Gc x0 x1 x2 x4 x5 x6 x7 x9 x10 x11 x13 x14 x15 := by
  funext i
  obtain ⟨r, j, rfl⟩ : ∃ (r : Fin 16384) (j : Fin 1024), i = ix2 r j := ⟨i 0, i 1, eq_ix2 i⟩
  exact c_at x0 x1 x2 x4 x5 x6 x7 x9 x10 x11 x13 x14 x15 r j

theorem ref_n (x0 x1 x3 x4 : A) (x6 x7 x10 x11 : M) (x14 x15 : B) :
    val_main_v50 (F := Ideal) x0 x1 x3 x4 x6 x7 x10 x11 x14 x15
      = Cert.Cell.Gn x0 x1 x3 x4 x6 x7 x10 x11 x14 x15 := by
  funext i
  obtain ⟨r, j, rfl⟩ : ∃ (r : Fin 16384) (j : Fin 1024), i = ix2 r j := ⟨i 0, i 1, eq_ix2 i⟩
  exact n_at x0 x1 x3 x4 x6 x7 x10 x11 x14 x15 r j

theorem ref_h (x0 x1 x2 x3 x4 : A) (x5 x6 x7 x8 x9 x10 x11 x12 : M) (x13 x14 x15 x16 : B) :
    val_main_v52 (F := Ideal) x0 x1 x2 x3 x4 x5 x6 x7 x8 x9 x10 x11 x12 x13 x14 x15 x16
      = Cert.Cell.Gh x0 x1 x2 x3 x4 x5 x6 x7 x8 x9 x10 x11 x12 x13 x14 x15 x16 := by
  funext i
  obtain ⟨r, j, rfl⟩ : ∃ (r : Fin 16384) (j : Fin 1024), i = ix2 r j := ⟨i 0, i 1, eq_ix2 i⟩
  exact h_at x0 x1 x2 x3 x4 x5 x6 x7 x8 x9 x10 x11 x12 x13 x14 x15 x16 r j

end Cert.ReferenceIdeal.RefValue

end
-- ==== Proof.lean ====
/-
  The certificate: the kernel and its idealization run to the end and leave their arguments as launched; the
  idealization rewrote nothing; and, over the extended reals, the idealized kernel and the idealized reference both end
  with the four arrays of one recurrent-cell step (new hidden state, cell state, normalizer, stabilizer) as the
  same functions of the seventeen arguments.

  The two sides differ only in arrangement.  The kernel multiplies each block of 128 rows of x and of h_prev by the
  four gates' weight matrices set side by side (two 1024 × 4096 products), adds the four biases set end to end, and
  cuts the gates' columns out of the result; the reference forms each gate's two 1024 × 1024 products and adds the
  gate's bias.  Entry (r, j) of gate g is on both sides
      (Σₖ x (r, k) · W_g (j, k) + Σₖ h (r, k) · R_g (j, k)) + b_g (j),
  the same products summed over the same index set, so no law of the extended reals beyond reading both
  sides at an index is needed, and the finiteness of the inputs is not used.  The entrywise remainder
  (maximum, exponentials, hyperbolic tangent, logistic, products, sums, one quotient) is spelt identically, the
  reference writing the logistic as 1 / (1 + e⁻ᵒ).
-/
import proofs.«135092_j51565377355780_2_alg».proof.Defs
import proofs.«135092_j51565377355780_2_alg».proof.Proof.Gen.Kernel
import proofs.«135092_j51565377355780_2_alg».proof.Proof.Gen.KernelIdeal
import proofs.«135092_j51565377355780_2_alg».proof.Proof.Gen.ReferenceIdeal
import proofs.«135092_j51565377355780_2_alg».proof.Proof.Gen.ReferenceIdeal.Run
import proofs.«135092_j51565377355780_2_alg».proof.Proof.Gen.ReferenceIdeal.Read
import proofs.«135092_j51565377355780_2_alg».proof.Proof.Gen.Pre_finite_inputs
import proofs.«135092_j51565377355780_2_alg».proof.Proof.KernelFrame
import proofs.«135092_j51565377355780_2_alg».proof.Proof.KernelIdealFrame
import proofs.«135092_j51565377355780_2_alg».proof.Proof.KernelIdealValue
import proofs.«135092_j51565377355780_2_alg».proof.Proof.RefCell
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_k : Cert.frame_Kernel (hKernel := Cert.Kernel.Gen.facts) (hPre_finite_inputs := Cert.Pre_finite_inputs.Gen.facts) :=
  fun m ρ _ => Cert.Kernel.Frm.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- And the reference: its run, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.Value.run (F := Ideal) m ρ)

set_option maxHeartbeats 1000000 in
/-- Both idealized programs end with the four arrays of the cell step as the same functions of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Cell.Gh (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.Cell.Gc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.Cell.Gn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.Cell.Gm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Val.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16⟩ := hagree c
  obtain ⟨h52, h48, h50, h40, hargs⟩ := h c
  refine ⟨?_, ?_, ?_, ?_, hargs⟩
  · exact h52.trans ((Cert.ReferenceIdeal.Read.val_main_v52_eq m' c).trans
      ((Cert.ReferenceIdeal.RefValue.ref_h _ _ _ _ _ _ _ _ _ _ _ _ _ _ _ _ _).trans (by rw [a0, a1, a2, a3, a4, a5, a6, a7, a8, a9, a10, a11, a12, a13, a14, a15, a16])))
  · exact h48.trans ((Cert.ReferenceIdeal.Read.val_main_v48_eq m' c).trans
      ((Cert.ReferenceIdeal.RefValue.ref_c _ _ _ _ _ _ _ _ _ _ _ _ _).trans (by rw [a0, a1, a2, a4, a5, a6, a7, a9, a10, a11, a13, a14, a15])))
  · exact h50.trans ((Cert.ReferenceIdeal.Read.val_main_v50_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans
      ((Cert.ReferenceIdeal.RefValue.ref_n _ _ _ _ _ _ _ _ _ _).trans (by rw [a0, a1, a3, a4, a6, a7, a10, a11, a14, a15])))
  · exact h40.trans ((Cert.ReferenceIdeal.Read.val_main_v40_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans
      ((Cert.ReferenceIdeal.RefValue.ref_m _ _ _ _ _ _ _ _ _).trans (by rw [a0, a1, a4, a6, a7, a10, a11, a14, a15])))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
